-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x325x12 : Shape := ⟨4, ![64, 64, 325, 12]⟩
abbrev S325x325 : Shape := ⟨2, ![325, 325]⟩
abbrev S1 : Shape := ⟨1, ![1]⟩
abbrev S_ : Shape := ⟨0, ![]⟩

class Facts : Prop where
  bcast_S_S64x64x325x12 : S_.BroadcastsInDim S64x64x325x12 (![] : Fin 0 → Fin S64x64x325x12.rank)
  reducesTo_S64x64x325x12_S_d0_1_2_3 : S64x64x325x12.ReducesTo [0, 1, 2, 3] S_
  h_S_ : 0 < S_.numel
  bcast_S_S325x325 : S_.BroadcastsInDim S325x325 (![] : Fin 0 → Fin S325x325.rank)
  reducesTo_S325x325_S_d0_1 : S325x325.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S64x64x325x12 .f32) (main_arg1 : FVec F S325x325 .f32) (main_arg2 : FVec F S1 .f32) (main_arg3 : FVec F S1 .f32) (main_arg4 : FVec F S1 .f32) (main_arg5 : FVec F S1 .f32) : IVec S_ 1 :=
  let main_v0 : FVec F S64x64x325x12 .f32 := Host.absf main_arg0
  let main_cst : FVec F S_ .f32 := constant S_ .f32 0x7F800000#32
  let main_v1 : FVec F S64x64x325x12 .f32 := broadcastInDim S64x64x325x12 ![] bcast_S_S64x64x325x12 main_cst
  let main_v2 : IVec S64x64x325x12 1 := cmpf .olt main_v0 main_v1
  let main_c : IVec S_ 1 := constantI S_ 1 1#1
  let main_v3 : IVec S_ 1 := (fun x v => Host.reduce IntOp.andi x v reducesTo_S64x64x325x12_S_d0_1_2_3 h_S_) main_v2 main_c
  let main_v4 : FVec F S325x325 .f32 := Host.absf main_arg1
  let main_cst_0 : FVec F S_ .f32 := constant S_ .f32 0x7F800000#32
  let main_v5 : FVec F S325x325 .f32 := broadcastInDim S325x325 ![] bcast_S_S325x325 main_cst_0
  let main_v6 : IVec S325x325 1 := cmpf .olt main_v4 main_v5
  let main_c_1 : IVec S_ 1 := constantI S_ 1 1#1
  let main_v7 : IVec S_ 1 := (fun x v => Host.reduce IntOp.andi x v reducesTo_S325x325_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg4 main_arg5 main_v13 main_v16
-- ==== Kernel.lean ====
abbrev S64x64x325x12 : Shape := ⟨4, ![64, 64, 325, 12]⟩
abbrev S325x325 : Shape := ⟨2, ![325, 325]⟩
abbrev S1 : Shape := ⟨1, ![1]⟩
abbrev S64x12x325x64 : Shape := ⟨4, ![64, 12, 325, 64]⟩
abbrev S768x325x64 : Shape := ⟨3, ![768, 325, 64]⟩
abbrev S768x325x2x32 : Shape := ⟨4, ![768, 325, 2, 32]⟩
abbrev S_ : Shape := ⟨0, ![]⟩
abbrev S768x325x2 : Shape := ⟨3, ![768, 325, 2]⟩
abbrev S768x325x1 : Shape := ⟨3, ![768, 325, 1]⟩
abbrev S768x325 : Shape := ⟨2, ![768, 325]⟩
abbrev S768x325x325 : Shape := ⟨3, ![768, 325, 325]⟩
abbrev S16x325 : Shape := ⟨2, ![16, 325]⟩
abbrev S16x325x325 : Shape := ⟨3, ![16, 325, 325]⟩
abbrev S16x325x1 : Shape := ⟨3, ![16, 325, 1]⟩
abbrev S16x1x325 : Shape := ⟨3, ![16, 1, 325]⟩
abbrev S1x325x325 : Shape := ⟨3, ![1, 325, 325]⟩
abbrev S64x12x325x325 : Shape := ⟨4, ![64, 12, 325, 325]⟩

abbrev nBuf : Space → Nat
  | .hbm => 107
  | .vmem => 7
  | .smem => 0
  | _ => 0

abbrev bufTy : (tb : Table) → Fin (tcTables nBuf tb) → BufTy
  | .hbm, ⟨0, _⟩ => ⟨S64x64x325x12, .f32⟩
  | .hbm, ⟨1, _⟩ => ⟨S325x325, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S64x12x325x64, .f32⟩
  | .hbm, ⟨7, _⟩ => ⟨S768x325x64, .f32⟩
  | .hbm, ⟨8, _⟩ => ⟨S768x325x2x32, .f32⟩
  | .hbm, ⟨9, _⟩ => ⟨S_, .f32⟩
  | .hbm, ⟨10, _⟩ => ⟨S768x325x2, .f32⟩
  | .hbm, ⟨11, _⟩ => ⟨S_, .f32⟩
  | .hbm, ⟨12, _⟩ => ⟨S768x325x2, .f32⟩
  | .hbm, ⟨13, _⟩ => ⟨S768x325x2, .f32⟩
  | .hbm, ⟨14, _⟩ => ⟨S_, .f32⟩
  | .hbm, ⟨15, _⟩ => ⟨S768x325x2, .f32⟩
  | .hbm, ⟨16, _⟩ => ⟨S768x325x2, .f32⟩
  | .hbm, ⟨17, _⟩ => ⟨S768x325x2, .f32⟩
  | .hbm, ⟨18, _⟩ => ⟨S768x325x2, .f32⟩
  | .hbm, ⟨19, _⟩ => ⟨S768x325x2, .i1⟩
  | .hbm, ⟨20, _⟩ => ⟨S768x325x2, .f32⟩
  | .hbm, ⟨21, _⟩ => ⟨S768x325x2, .f32⟩
  | .hbm, ⟨22, _⟩ => ⟨S768x325x2, .f32⟩
  | .hbm, ⟨23, _⟩ => ⟨S768x325x2, .f32⟩
  | .hbm, ⟨24, _⟩ => ⟨S768x325x2, .f32⟩
  | .hbm, ⟨25, _⟩ => ⟨S768x325x2, .f32⟩
  | .hbm, ⟨26, _⟩ => ⟨S768x325x2, .f32⟩
  | .hbm, ⟨27, _⟩ => ⟨S768x325x2, .f32⟩
  | .hbm, ⟨28, _⟩ => ⟨S_, .f32⟩
  | .hbm, ⟨29, _⟩ => ⟨S768x325x2, .f32⟩
  | .hbm, ⟨30, _⟩ => ⟨S768x325x2, .f32⟩
  | .hbm, ⟨31, _⟩ => ⟨S768x325x1, .f32⟩
  | .hbm, ⟨32, _⟩ => ⟨S768x325, .f32⟩
  | .hbm, ⟨33, _⟩ => ⟨S768x325x1, .f32⟩
  | .hbm, ⟨34, _⟩ => ⟨S768x325, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .i1⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .i1⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1, .f32⟩
  | .hbm, ⟨69, _⟩ => ⟨S1, .f32⟩
  | .hbm, ⟨70, _⟩ => ⟨S1, .i1⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S1, .i1⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S_, .f32⟩
  | .hbm, ⟨95, _⟩ => ⟨S768x325, .f32⟩
  | .hbm, ⟨96, _⟩ => ⟨S768x325, .f32⟩
  | .hbm, ⟨97, _⟩ => ⟨S768x325, .f32⟩
  | .hbm, ⟨98, _⟩ => ⟨S768x325, .f32⟩
  | .hbm, ⟨99, _⟩ => ⟨S_, .f32⟩
  | .hbm, ⟨100, _⟩ => ⟨S_, .f32⟩
  | .hbm, ⟨101, _⟩ => ⟨S325x325, .f32⟩
  | .hbm, ⟨102, _⟩ => ⟨S325x325, .f32⟩
  | .hbm, ⟨103, _⟩ => ⟨S325x325, .f32⟩
  | .hbm, ⟨104, _⟩ => ⟨S325x325, .f32⟩
  | .hbm, ⟨105, _⟩ => ⟨S768x325x325, .f32⟩
  | .hbm, ⟨106, _⟩ => ⟨S64x12x325x325, .f32⟩
  | .local _ .vmem, ⟨0, _⟩ => ⟨S16x325, .f32⟩
  | .local _ .vmem, ⟨1, _⟩ => ⟨S16x325, .f32⟩
  | .local _ .vmem, ⟨2, _⟩ => ⟨S16x325, .f32⟩
  | .local _ .vmem, ⟨3, _⟩ => ⟨S16x325, .f32⟩
  | .local _ .vmem, ⟨4, _⟩ => ⟨S325x325, .f32⟩
  | .local _ .vmem, ⟨5, _⟩ => ⟨S16x325x325, .f32⟩
  | .local _ .vmem, ⟨6, _⟩ => ⟨S16x325x325, .f32⟩
  | _, _ => ⟨S64x64x325x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v13 : Ref sig .tc := ⟨.hbm, 48, rfl⟩
abbrev main_v14 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_v15 : Ref sig .tc := ⟨.hbm, 63, rfl⟩
abbrev main_v16 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_v17 : Ref sig .tc := ⟨.hbm, 78, rfl⟩
abbrev main_v18 : Ref sig .tc := ⟨.hbm, 79, rfl⟩
abbrev main_call4_cst : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_cst_2 : Ref sig .tc := ⟨.hbm, 99, rfl⟩
abbrev main_v25 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_v29 : Ref sig .tc := ⟨.hbm, 104, rfl⟩
abbrev main_v30 : Ref sig .tc := ⟨.hbm, 105, rfl⟩
abbrev main_v31 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x325 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x325 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S325x325 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x325x325 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S64x64x325x12_S64x12x325x64_0_3_2_1 : S64x64x325x12.Transposes [0, 3, 2, 1] S64x12x325x64
  shapeCasts_S64x12x325x64_S768x325x64 : S64x12x325x64.ShapeCasts S768x325x64
  shapeCasts_S768x325x64_S768x325x2x32 : S768x325x64.ShapeCasts S768x325x2x32
  reducesTo_S768x325x2x32_S768x325x2_d3 : S768x325x2x32.ReducesTo [3] S768x325x2
  h_S_ : 0 < S_.numel
  bcast_S_S768x325x2 : S_.BroadcastsInDim S768x325x2 (![] : Fin 0 → Fin S768x325x2.rank)
  slices_S768x325x2_S768x325x1_0_0_0 : S768x325x2.Slices ![0, 0, 0] S768x325x1
  shapeCasts_S768x325x1_S768x325 : S768x325x1.ShapeCasts S768x325
  slices_S768x325x2_S768x325x1_0_0_1 : S768x325x2.Slices ![0, 0, 1] S768x325x1
  bcast_S_S1 : S_.BroadcastsInDim S1 (![] : Fin 0 → Fin S1.rank)
  shapeCasts_S1_S_ : S1.ShapeCasts S_
  bcast_S_S768x325 : S_.BroadcastsInDim S768x325 (![] : Fin 0 → Fin S768x325.rank)
  bcast_S_S325x325 : S_.BroadcastsInDim S325x325 (![] : Fin 0 → Fin S325x325.rank)
  inb_S16x325_S16x325_0_0 : ∀ a, (![0, 0] : Fin 2 → Nat) a + S16x325.size a ≤ S16x325.size a
  h_S16x325 : 0 < S16x325.numel
  shapeCasts_S16x325_S16x325 : S16x325.ShapeCasts S16x325
  inb_S325x325_S325x325_0_0 : ∀ a, (![0, 0] : Fin 2 → Nat) a + S325x325.size a ≤ S325x325.size a
  h_S325x325 : 0 < S325x325.numel
  shapeCasts_S325x325_S325x325 : S325x325.ShapeCasts S325x325
  shapeCasts_S16x325_S16x325x1 : S16x325.ShapeCasts S16x325x1
  shapeCasts_S16x325_S16x1x325 : S16x325.ShapeCasts S16x1x325
  broadcasts_S16x325x1_S16x325x325 : S16x325x1.Broadcasts S16x325x325
  broadcasts_S16x1x325_S16x325x325 : S16x1x325.Broadcasts S16x325x325
  shapeCasts_S325x325_S1x325x325 : S325x325.ShapeCasts S1x325x325
  broadcasts_S1x325x325_S16x325x325 : S1x325x325.Broadcasts S16x325x325
  reduces_S16x325x325_S16x325 : S16x325x325.Reduces [2] S16x325
  inb_S16x325x325_S16x325x325_0_0_0 : ∀ a, (![0, 0, 0] : Fin 3 → Nat) a + S16x325x325.size a ≤ S16x325x325.size a
  h_S16x325x325 : 0 < S16x325x325.numel
  shapeCasts_S768x325x325_S64x12x325x325 : S768x325x325.ShapeCasts S64x12x325x325
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x325.size a ≤ S768x325.size a
  hwx0_0 : ∀ i : grid0.Coords, EltTy.bits .f32 = 32 ∨ (Rect.block (s := S768x325) S16x325.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x325.size a ≤ S768x325.size a
  hwx0_1 : ∀ i : grid0.Coords, EltTy.bits .f32 = 32 ∨ (Rect.block (s := S768x325) S16x325.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S325x325.size a ≤ S325x325.size a
  hwx0_2 : ∀ i : grid0.Coords, EltTy.bits .f32 = 32 ∨ (Rect.block (s := S325x325) S325x325.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x325x325.size a ≤ S768x325x325.size a
  hwx0_3 : ∀ i : grid0.Coords, EltTy.bits .f32 = 32 ∨ (Rect.block (s := S768x325x325) S16x325x325.size (cc0_transform_3 i) (hinb0_3 i)).WholeWords (EltTy.packing .f32)

variable [Facts₀]

abbrev win0_0 : Pipeline.Window sig grid0 :=
  Pipeline.Window.ofSpec (Memref.whole main_v22) S16x325.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S16x325.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S325x325.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S16x325x325.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x64x325x12 : Shape := ⟨4, ![64, 64, 325, 12]⟩
abbrev S325x325 : Shape := ⟨2, ![325, 325]⟩
abbrev S1 : Shape := ⟨1, ![1]⟩
abbrev S64x12x325x64 : Shape := ⟨4, ![64, 12, 325, 64]⟩
abbrev S768x325x64 : Shape := ⟨3, ![768, 325, 64]⟩
abbrev S768x325x2x32 : Shape := ⟨4, ![768, 325, 2, 32]⟩
abbrev S_ : Shape := ⟨0, ![]⟩
abbrev S768x325x2 : Shape := ⟨3, ![768, 325, 2]⟩
abbrev S768x325x1 : Shape := ⟨3, ![768, 325, 1]⟩
abbrev S768x325 : Shape := ⟨2, ![768, 325]⟩
abbrev S768x1x325 : Shape := ⟨3, ![768, 1, 325]⟩
abbrev S768x325x325 : Shape := ⟨3, ![768, 325, 325]⟩
abbrev S1x325x325 : Shape := ⟨3, ![1, 325, 325]⟩
abbrev S64x12x325x325 : Shape := ⟨4, ![64, 12, 325, 325]⟩
abbrev S64x12x325 : Shape := ⟨3, ![64, 12, 325]⟩
abbrev S64x12x325x1 : Shape := ⟨4, ![64, 12, 325, 1]⟩

abbrev nBuf : Space → Nat
  | .hbm => 128
  | .vmem => 0
  | .smem => 0
  | _ => 0

abbrev bufTy : (tb : Table) → Fin (tcTables nBuf tb) → BufTy
  | .hbm, ⟨0, _⟩ => ⟨S64x64x325x12, .f32⟩
  | .hbm, ⟨1, _⟩ => ⟨S325x325, .f32⟩
  | .hbm, ⟨2, _⟩ => ⟨S1, .f32⟩
  | .hbm, ⟨3, _⟩ => ⟨S1, .f32⟩
  | .hbm, ⟨4, _⟩ => ⟨S1, .f32⟩
  | .hbm, ⟨5, _⟩ => ⟨S1, .f32⟩
  | .hbm, ⟨6, _⟩ => ⟨S64x12x325x64, .f32⟩
  | .hbm, ⟨7, _⟩ => ⟨S768x325x64, .f32⟩
  | .hbm, ⟨8, _⟩ => ⟨S768x325x2x32, .f32⟩
  | .hbm, ⟨9, _⟩ => ⟨S_, .f32⟩
  | .hbm, ⟨10, _⟩ => ⟨S768x325x2, .f32⟩
  | .hbm, ⟨11, _⟩ => ⟨S_, .f32⟩
  | .hbm, ⟨12, _⟩ => ⟨S768x325x2, .f32⟩
  | .hbm, ⟨13, _⟩ => ⟨S768x325x2, .f32⟩
  | .hbm, ⟨14, _⟩ => ⟨S_, .f32⟩
  | .hbm, ⟨15, _⟩ => ⟨S768x325x2, .f32⟩
  | .hbm, ⟨16, _⟩ => ⟨S768x325x2, .f32⟩
  | .hbm, ⟨17, _⟩ => ⟨S768x325x2, .f32⟩
  | .hbm, ⟨18, _⟩ => ⟨S768x325x2, .f32⟩
  | .hbm, ⟨19, _⟩ => ⟨S768x325x2, .i1⟩
  | .hbm, ⟨20, _⟩ => ⟨S768x325x2, .f32⟩
  | .hbm, ⟨21, _⟩ => ⟨S768x325x2, .f32⟩
  | .hbm, ⟨22, _⟩ => ⟨S768x325x2, .f32⟩
  | .hbm, ⟨23, _⟩ => ⟨S768x325x2, .f32⟩
  | .hbm, ⟨24, _⟩ => ⟨S768x325x2, .f32⟩
  | .hbm, ⟨25, _⟩ => ⟨S768x325x2, .f32⟩
  | .hbm, ⟨26, _⟩ => ⟨S768x325x2, .f32⟩
  | .hbm, ⟨27, _⟩ => ⟨S768x325x2, .f32⟩
  | .hbm, ⟨28, _⟩ => ⟨S_, .f32⟩
  | .hbm, ⟨29, _⟩ => ⟨S768x325x2, .f32⟩
  | .hbm, ⟨30, _⟩ => ⟨S768x325x2, .f32⟩
  | .hbm, ⟨31, _⟩ => ⟨S768x325x1, .f32⟩
  | .hbm, ⟨32, _⟩ => ⟨S768x325, .f32⟩
  | .hbm, ⟨33, _⟩ => ⟨S768x325x1, .f32⟩
  | .hbm, ⟨34, _⟩ => ⟨S768x325, .f32⟩
  | .hbm, ⟨35, _⟩ => ⟨S_, .f32⟩
  | .hbm, ⟨36, _⟩ => ⟨S1, .f32⟩
  | .hbm, ⟨37, _⟩ => ⟨S1, .f32⟩
  | .hbm, ⟨38, _⟩ => ⟨S1, .f32⟩
  | .hbm, ⟨39, _⟩ => ⟨S1, .f32⟩
  | .hbm, ⟨40, _⟩ => ⟨S1, .i1⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S1, .f32⟩
  | .hbm, ⟨47, _⟩ => ⟨S1, .f32⟩
  | .hbm, ⟨48, _⟩ => ⟨S1, .f32⟩
  | .hbm, ⟨49, _⟩ => ⟨S_, .f32⟩
  | .hbm, ⟨50, _⟩ => ⟨S_, .f32⟩
  | .hbm, ⟨51, _⟩ => ⟨S1, .f32⟩
  | .hbm, ⟨52, _⟩ => ⟨S1, .f32⟩
  | .hbm, ⟨53, _⟩ => ⟨S1, .f32⟩
  | .hbm, ⟨54, _⟩ => ⟨S1, .f32⟩
  | .hbm, ⟨55, _⟩ => ⟨S1, .i1⟩
  | .hbm, ⟨56, _⟩ => ⟨S1, .f32⟩
  | .hbm, ⟨57, _⟩ => ⟨S1, .f32⟩
  | .hbm, ⟨58, _⟩ => ⟨S1, .f32⟩
  | .hbm, ⟨59, _⟩ => ⟨S1, .f32⟩
  | .hbm, ⟨60, _⟩ => ⟨S1, .f32⟩
  | .hbm, ⟨61, _⟩ => ⟨S1, .f32⟩
  | .hbm, ⟨62, _⟩ => ⟨S1, .f32⟩
  | .hbm, ⟨63, _⟩ => ⟨S1, .f32⟩
  | .hbm, ⟨64, _⟩ => ⟨S_, .f32⟩
  | .hbm, ⟨65, _⟩ => ⟨S_, .f32⟩
  | .hbm, ⟨66, _⟩ => ⟨S1, .f32⟩
  | .hbm, ⟨67, _⟩ => ⟨S1, .f32⟩
  | .hbm, ⟨68, _⟩ => ⟨S1, .f32⟩
  | .hbm, ⟨69, _⟩ => ⟨S1, .f32⟩
  | .hbm, ⟨70, _⟩ => ⟨S1, .i1⟩
  | .hbm, ⟨71, _⟩ => ⟨S1, .f32⟩
  | .hbm, ⟨72, _⟩ => ⟨S1, .f32⟩
  | .hbm, ⟨73, _⟩ => ⟨S1, .f32⟩
  | .hbm, ⟨74, _⟩ => ⟨S1, .f32⟩
  | .hbm, ⟨75, _⟩ => ⟨S1, .f32⟩
  | .hbm, ⟨76, _⟩ => ⟨S1, .f32⟩
  | .hbm, ⟨77, _⟩ => ⟨S1, .f32⟩
  | .hbm, ⟨78, _⟩ => ⟨S1, .f32⟩
  | .hbm, ⟨79, _⟩ => ⟨S_, .f32⟩
  | .hbm, ⟨80, _⟩ => ⟨S_, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S1, .i1⟩
  | .hbm, ⟨86, _⟩ => ⟨S1, .f32⟩
  | .hbm, ⟨87, _⟩ => ⟨S1, .f32⟩
  | .hbm, ⟨88, _⟩ => ⟨S1, .f32⟩
  | .hbm, ⟨89, _⟩ => ⟨S1, .f32⟩
  | .hbm, ⟨90, _⟩ => ⟨S1, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S_, .f32⟩
  | .hbm, ⟨95, _⟩ => ⟨S768x325, .f32⟩
  | .hbm, ⟨96, _⟩ => ⟨S768x325, .f32⟩
  | .hbm, ⟨97, _⟩ => ⟨S768x325x1, .f32⟩
  | .hbm, ⟨98, _⟩ => ⟨S768x325, .f32⟩
  | .hbm, ⟨99, _⟩ => ⟨S768x325, .f32⟩
  | .hbm, ⟨100, _⟩ => ⟨S768x1x325, .f32⟩
  | .hbm, ⟨101, _⟩ => ⟨S768x325x325, .f32⟩
  | .hbm, ⟨102, _⟩ => ⟨S768x325x325, .f32⟩
  | .hbm, ⟨103, _⟩ => ⟨S768x325x325, .f32⟩
  | .hbm, ⟨104, _⟩ => ⟨S_, .f32⟩
  | .hbm, ⟨105, _⟩ => ⟨S_, .f32⟩
  | .hbm, ⟨106, _⟩ => ⟨S325x325, .f32⟩
  | .hbm, ⟨107, _⟩ => ⟨S325x325, .f32⟩
  | .hbm, ⟨108, _⟩ => ⟨S768x325x325, .f32⟩
  | .hbm, ⟨109, _⟩ => ⟨S768x325x325, .f32⟩
  | .hbm, ⟨110, _⟩ => ⟨S1x325x325, .f32⟩
  | .hbm, ⟨111, _⟩ => ⟨S768x325x325, .f32⟩
  | .hbm, ⟨112, _⟩ => ⟨S768x325x325, .f32⟩
  | .hbm, ⟨113, _⟩ => ⟨S64x12x325x325, .f32⟩
  | .hbm, ⟨114, _⟩ => ⟨S_, .f32⟩
  | .hbm, ⟨115, _⟩ => ⟨S64x12x325, .f32⟩
  | .hbm, ⟨116, _⟩ => ⟨S_, .f32⟩
  | .hbm, ⟨117, _⟩ => ⟨S64x12x325, .f32⟩
  | .hbm, ⟨118, _⟩ => ⟨S64x12x325, .f32⟩
  | .hbm, ⟨119, _⟩ => ⟨S64x12x325x1, .f32⟩
  | .hbm, ⟨120, _⟩ => ⟨S64x12x325x325, .f32⟩
  | .hbm, ⟨121, _⟩ => ⟨S64x12x325x325, .f32⟩
  | .hbm, ⟨122, _⟩ => ⟨S64x12x325x325, .f32⟩
  | .hbm, ⟨123, _⟩ => ⟨S_, .f32⟩
  | .hbm, ⟨124, _⟩ => ⟨S64x12x325, .f32⟩
  | .hbm, ⟨125, _⟩ => ⟨S64x12x325x1, .f32⟩
  | .hbm, ⟨126, _⟩ => ⟨S64x12x325x325, .f32⟩
  | .hbm, ⟨127, _⟩ => ⟨S64x12x325x325, .f32⟩
  | _, _ => ⟨S64x64x325x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_v6 : Ref sig .tc := ⟨.hbm, 27, rfl⟩
abbrev main_cst_1 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call1_cst : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_v13 : Ref sig .tc := ⟨.hbm, 48, rfl⟩
abbrev main_v14 : Ref sig .tc := ⟨.hbm, 49, rfl⟩
abbrev main_call2_cst : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_v9 : Ref sig .tc := ⟨.hbm, 60, rfl⟩
abbrev main_call2_v10 : Ref sig .tc := ⟨.hbm, 61, rfl⟩
abbrev main_call2_v11 : Ref sig .tc := ⟨.hbm, 62, rfl⟩
abbrev main_v15 : Ref sig .tc := ⟨.hbm, 63, rfl⟩
abbrev main_v16 : Ref sig .tc := ⟨.hbm, 64, rfl⟩
abbrev main_call3_cst : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_v17 : Ref sig .tc := ⟨.hbm, 78, rfl⟩
abbrev main_v18 : Ref sig .tc := ⟨.hbm, 79, rfl⟩
abbrev main_call4_cst : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_call4_v3 : Ref sig .tc := ⟨.hbm, 84, rfl⟩
abbrev main_call4_v4 : Ref sig .tc := ⟨.hbm, 85, rfl⟩
abbrev main_call4_v5 : Ref sig .tc := ⟨.hbm, 86, rfl⟩
abbrev main_call4_v6 : Ref sig .tc := ⟨.hbm, 87, rfl⟩
abbrev main_call4_v7 : Ref sig .tc := ⟨.hbm, 88, rfl⟩
abbrev main_call4_v8 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_v22 : Ref sig .tc := ⟨.hbm, 96, rfl⟩
abbrev main_v23 : Ref sig .tc := ⟨.hbm, 97, rfl⟩
abbrev main_v24 : Ref sig .tc := ⟨.hbm, 98, rfl⟩
abbrev main_v25 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩
abbrev main_v29 : Ref sig .tc := ⟨.hbm, 103, rfl⟩
abbrev main_cst_2 : Ref sig .tc := ⟨.hbm, 104, rfl⟩
abbrev main_v30 : Ref sig .tc := ⟨.hbm, 105, rfl⟩
abbrev main_v31 : Ref sig .tc := ⟨.hbm, 106, rfl⟩
abbrev main_v32 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_v36 : Ref sig .tc := ⟨.hbm, 111, rfl⟩
abbrev main_v37 : Ref sig .tc := ⟨.hbm, 112, rfl⟩
abbrev main_v38 : Ref sig .tc := ⟨.hbm, 113, rfl⟩
abbrev main_cst_3 : Ref sig .tc := ⟨.hbm, 114, rfl⟩
abbrev main_v39 : Ref sig .tc := ⟨.hbm, 115, rfl⟩
abbrev main_cst_4 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_v44 : Ref sig .tc := ⟨.hbm, 121, rfl⟩
abbrev main_v45 : Ref sig .tc := ⟨.hbm, 122, rfl⟩
abbrev main_cst_5 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]

class Facts₀ : Prop where
  transposes_S64x64x325x12_S64x12x325x64_0_3_2_1 : S64x64x325x12.Transposes [0, 3, 2, 1] S64x12x325x64
  shapeCasts_S64x12x325x64_S768x325x64 : S64x12x325x64.ShapeCasts S768x325x64
  shapeCasts_S768x325x64_S768x325x2x32 : S768x325x64.ShapeCasts S768x325x2x32
  reducesTo_S768x325x2x32_S768x325x2_d3 : S768x325x2x32.ReducesTo [3] S768x325x2
  h_S_ : 0 < S_.numel
  bcast_S_S768x325x2 : S_.BroadcastsInDim S768x325x2 (![] : Fin 0 → Fin S768x325x2.rank)
  slices_S768x325x2_S768x325x1_0_0_0 : S768x325x2.Slices ![0, 0, 0] S768x325x1
  shapeCasts_S768x325x1_S768x325 : S768x325x1.ShapeCasts S768x325
  slices_S768x325x2_S768x325x1_0_0_1 : S768x325x2.Slices ![0, 0, 1] S768x325x1
  bcast_S_S1 : S_.BroadcastsInDim S1 (![] : Fin 0 → Fin S1.rank)
  shapeCasts_S1_S_ : S1.ShapeCasts S_
  bcast_S_S768x325 : S_.BroadcastsInDim S768x325 (![] : Fin 0 → Fin S768x325.rank)
  bcast_S768x325_S768x325x1_0_1 : S768x325.BroadcastsInDim S768x325x1 (![0, 1] : Fin 2 → Fin S768x325x1.rank)
  bcast_S768x325_S768x1x325_0_2 : S768x325.BroadcastsInDim S768x1x325 (![0, 2] : Fin 2 → Fin S768x1x325.rank)
  bcast_S768x325x1_S768x325x325_0_1_2 : S768x325x1.BroadcastsInDim S768x325x325 (![0, 1, 2] : Fin 3 → Fin S768x325x325.rank)
  bcast_S768x1x325_S768x325x325_0_1_2 : S768x1x325.BroadcastsInDim S768x325x325 (![0, 1, 2] : Fin 3 → Fin S768x325x325.rank)
  bcast_S_S325x325 : S_.BroadcastsInDim S325x325 (![] : Fin 0 → Fin S325x325.rank)
  bcast_S_S768x325x325 : S_.BroadcastsInDim S768x325x325 (![] : Fin 0 → Fin S768x325x325.rank)
  bcast_S325x325_S1x325x325_1_2 : S325x325.BroadcastsInDim S1x325x325 (![1, 2] : Fin 2 → Fin S1x325x325.rank)
  bcast_S1x325x325_S768x325x325_0_1_2 : S1x325x325.BroadcastsInDim S768x325x325 (![0, 1, 2] : Fin 3 → Fin S768x325x325.rank)
  shapeCasts_S768x325x325_S64x12x325x325 : S768x325x325.ShapeCasts S64x12x325x325
  reducesTo_S64x12x325x325_S64x12x325_d3 : S64x12x325x325.ReducesTo [3] S64x12x325
  bcast_S_S64x12x325 : S_.BroadcastsInDim S64x12x325 (![] : Fin 0 → Fin S64x12x325.rank)
  bcast_S64x12x325_S64x12x325x1_0_1_2 : S64x12x325.BroadcastsInDim S64x12x325x1 (![0, 1, 2] : Fin 3 → Fin S64x12x325x1.rank)
  bcast_S64x12x325x1_S64x12x325x325_0_1_2_3 : S64x12x325x1.BroadcastsInDim S64x12x325x325 (![0, 1, 2, 3] : Fin 4 → Fin S64x12x325x325.rank)

variable [Facts₀]

class Facts : Prop extends Facts₀ where

variable [Facts]
-- ==== Proof.Spec.lean ====
/-
  The mathematics both programs compute, stated once, free of either program.

  From two arrays a₁, a₂ of shape [768, 325] and a weight array w of shape [325, 325], row r of the score tensor is
  the rank-one product a₁[r, p] · a₂[r, k] weighted by w[p, k]; the result is the softmax of each row (r, p) over k,
  taken in the max-shifted form exp (s − max s) / Σ exp (s − max s), the maximum folded from −∞ and the quotient the
  extended reals' (no finiteness is used anywhere: the two programs differ only in how a product of four factors is
  grouped, and multiplication of extended reals is commutative and associative).  The final array regroups the 768
  rows as 64 × 12.
-/
import Idealize.ShloMosaic.PureOps.Ideal
import Idealize.ShloMosaic.PureOps.Ideal.Laws
import Idealize.ShloMosaic.Lib.ValueIdx
import Mathlib.Data.Finset.Fold

noncomputable section

namespace Cert.OuterSoftmax

open Idealize.ShloMosaic Idealize.ShloMosaic.ValueIdx

/-- The maximum of a row of 325 extended reals, folded from the value of the pattern of −∞. -/
def rowMax (f : Fin 325 → EReal) : EReal :=
  (Finset.univ : Finset (Fin 325)).fold max (Ideal.ofBits .f32 0xFF800000#32) f

/-- The max-shifted softmax of a row, at lane `q`. -/
def rowSoftmax (f : Fin 325 → EReal) (q : Fin 325) : EReal :=
  Ideal.div (Ideal.exp (f q - rowMax f)) (∑ k : Fin 325, Ideal.exp (f k - rowMax f))

/-- The score of row `r`, at (p, k): the rank-one product weighted by `w`. -/
def score (a₁ a₂ : (⟨2, ![768, 325]⟩ : Shape).Idx → EReal) (w : (⟨2, ![325, 325]⟩ : Shape).Idx → EReal)
    (r : Fin 768) (p k : Fin 325) : EReal :=
  (a₁ (ix2 r p) * a₂ (ix2 r k)) * w (ix2 p k)

/-- The same score with the scalar gain `g` multiplied in first and the unscaled weights last: the other grouping. -/
def scoreGainFirst (a₁ a₂ : (⟨2, ![768, 325]⟩ : Shape).Idx → EReal) (g : EReal) (d : (⟨2, ![325, 325]⟩ : Shape).Idx → EReal)
    (r : Fin 768) (p k : Fin 325) : EReal :=
  (g * (a₁ (ix2 r p) * a₂ (ix2 r k))) * d (ix2 p k)

/-- The two groupings of the four factors agree on the extended reals: only commutativity and associativity. -/
theorem scoreGainFirst_eq (a₁ a₂ : (⟨2, ![768, 325]⟩ : Shape).Idx → EReal) (g : EReal)
    (d : (⟨2, ![325, 325]⟩ : Shape).Idx → EReal) (r : Fin 768) (p k : Fin 325) :
    scoreGainFirst a₁ a₂ g d r p k = score a₁ a₂ (fun i => g * d i) r p k := by
  unfold scoreGainFirst score
  rw [mul_comm g (a₁ (ix2 r p) * a₂ (ix2 r k)), mul_assoc]

/-- The softmaxed score tensor over [768, 325, 325]. -/
def weights (a₁ a₂ : (⟨2, ![768, 325]⟩ : Shape).Idx → EReal) (w : (⟨2, ![325, 325]⟩ : Shape).Idx → EReal) :
    (⟨3, ![768, 325, 325]⟩ : Shape).Idx → EReal :=
  fun i => rowSoftmax (score a₁ a₂ w (i 0) (i 1)) (i 2)

/-- Row `b·12 + t` of 768, from its two coordinates. -/
def row (b : Fin 64) (t : Fin 12) : Fin 768 := ⟨b.val * 12 + t.val, by have := b.isLt; have := t.isLt; omega⟩

/-- The result over [64, 12, 325, 325]: row (b, t) of the final array is row b·12 + t of the tensor. -/
def result (a₁ a₂ : (⟨2, ![768, 325]⟩ : Shape).Idx → EReal) (w : (⟨2, ![325, 325]⟩ : Shape).Idx → EReal) :
    (⟨4, ![64, 12, 325, 325]⟩ : Shape).Idx → EReal :=
  fun i => rowSoftmax (score a₁ a₂ w (row (i 0) (i 1)) (i 2)) (i 3)

/-- −∞ is below every fold of `max` that starts from it, so taking the maximum with it again changes nothing. -/
theorem max_bot_rowMax (f : Fin 325 → EReal) :
    max (Ideal.ofBits .f32 0xFF800000#32) (rowMax f) = rowMax f := by
  unfold rowMax
  exact max_eq_right ((Finset.le_fold_max _).mpr (Or.inl le_rfl))

end Cert.OuterSoftmax

end
-- ==== Proof.LibLane3.lean ====
/-
  Rank-3 arrays read at an index by coordinates: the two ways a matrix becomes a rank-3 array with a unit axis
  (a column of rows [a, b] → [a, b, 1], a row of rows [a, b] → [a, 1, b]), the three broadcasts of a rank-3 array with
  one unit axis to the full box, and the reductions along the LAST axis (a fold of `max`, a sum) written over that
  axis's coordinate.  All shapes are literal-rank with variable extents, so the lemmas do not change with a tiling.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibLane3

open Idealize.ShloMosaic Idealize.ShloMosaic.ValueIdx

variable {α : Type}

/-- An `[a, b]` array cast to `[a, b, 1]` reads, at `(i, j, u)`, the operand at `(i, j)`: both flatten to `i·b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, b, 1]` array broadcast to `[a, b, c]` reads, at `(i, j, k)`, the operand's one lane of row `(i, j)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand's one row at `(i, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand's one matrix at `(j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- Reducing `[a, b, c]` along its last axis: the index `(i, j)` of the result with the coordinate `k` put back is `(i, j, k)`. -/
theorem lift_last {a b c : ℕ} (h : (⟨3, ![a, b, c]⟩ : Shape).Reduces [(2 : Fin 3)] ⟨2, ![a, b]⟩) (i : Fin a) (j : Fin b) (k : Fin c) :
    h.lift (ix2 i j) k = ix3 i j k := by
  funext ax
  match ax with
  | ⟨0, _⟩ => exact Fin.ext rfl
  | ⟨1, _⟩ => exact Fin.ext rfl
  | ⟨2, _⟩ => exact Fin.ext rfl

variable {φ : FTy}

/-- The maximum along the last axis of an `[a, b, c]` array of extended reals, at `(i, j)`: the fold of `max` from the
    accumulator's value over the lane coordinate. -/
theorem laneMax_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (i : Fin a) (j : Fin b) :
    multiReduction .maximumf [(2 : Fin 3)] ⟨2, ![a, b]⟩ src acc h hφ hacc (ix2 i j)
      = (Finset.univ : Finset (Fin c)).fold max (Ideal.ofBits φ acc) (fun k => src (ix3 i j k)) := by
  rw [Ideal.multiReduction_maximumf_single]
  have e : (src ∘ h.lift (ix2 i j)) = fun k => src (ix3 i j k) := funext fun k => congrArg src (lift_last h i j k)
  rw [e]
  rfl

/-- The sum along the last axis of an `[a, b, c]` array of extended reals, at `(i, j)`. -/
theorem laneSum_apply {a b c : ℕ} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (j : Fin b) :
    multiReduction .add [(2 : Fin 3)] ⟨2, ![a, b]⟩ src acc h hφ hacc (ix2 i j) = ∑ k : Fin c, src (ix3 i j k) := by
  rw [Ideal.multiReduction_add_single]
  exact Finset.sum_congr rfl fun k _ => congrArg src (lift_last h i j k)

end Cert.LibLane3

end
-- ==== Proof.KernelRow.lean ====
/-
  One grid point's block of the kernel, read at an index.

  The body forms the score tensor of its 16 rows — row r, entry (p, k) is x₀[r, p] · x₁[r, k] · x₂[p, k], the first
  two factors a column and a row of the loaded [16, 325] blocks spread over the box, the third the whole [325, 325]
  weight matrix —, takes each row's maximum over k (from −∞), exponentiates the shifted scores, sums them over k and
  divides: the max-shifted softmax of the row, which is `OuterSoftmax.rowSoftmax` of the row of scores.
-/
import proofs.«128878_j21792664059967_2_alg».proof.Proof.Spec
import proofs.«128878_j21792664059967_2_alg».proof.Proof.LibLane3
import proofs.«128878_j21792664059967_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Cert.LibLane3 Cert.OuterSoftmax

/-- The score tensor of a block at (r, p, k): the column of x₀, the row of x₁ and the matrix x₂, each spread over the
    [16, 325, 325] box, multiplied entry by entry. -/
theorem score_apply (x0 x1 : FVec Ideal S16x325 .f32) (x2 : FVec Ideal S325x325 .f32)
    (h0 : S16x325.ShapeCasts S16x325) (h2 : S325x325.ShapeCasts S325x325)
    (hc : S16x325.ShapeCasts S16x325x1) (hrw : S16x325.ShapeCasts S16x1x325) (hm : S325x325.ShapeCasts S1x325x325)
    (bc : S16x325x1.Broadcasts S16x325x325) (br : S16x1x325.Broadcasts S16x325x325) (bm : S1x325x325.Broadcasts S16x325x325)
    (r : Fin 16) (p k : Fin 325) :
    mulf (mulf (broadcastTo S16x325x325 (shapeCast S16x325x1 (shapeCast S16x325 x0 h0) hc) bc)
        (broadcastTo S16x325x325 (shapeCast S16x1x325 (shapeCast S16x325 x1 h0) hrw) br))
      (broadcastTo S16x325x325 (shapeCast S1x325x325 (shapeCast S325x325 x2 h2) hm) bm) (ix3 r p k)
    = x0 (ix2 r p) * x1 (ix2 r k) * x2 (ix2 p k) := by
  rw [mulf_apply, mulf_apply, broadcastTo_ab1_abc_apply, shapeCast_ab_ab1_apply, shapeCast_self,
    broadcastTo_a1c_abc_apply, shapeCast_ab_a1b_apply, shapeCast_self,
    broadcastTo_1bc_abc_apply, shapeCast_ab_1ab_apply, shapeCast_self]

/-- Scores shifted by a per-row value `Mx`, exponentiated, and divided by their sum over the lane: at (r, p, q) the
    quotient of exp (S[r,p,q] − Mx[r,p]) by Σₖ exp (S[r,p,k] − Mx[r,p]). -/
theorem shifted_apply (S : FVec Ideal S16x325x325 .f32) (Mx : FVec Ideal S16x325 .f32)
    (hc : S16x325.ShapeCasts S16x325x1) (bc : S16x325x1.Broadcasts S16x325x325)
    (hr : S16x325x325.Reduces [(2 : Fin 3)] S16x325) (hφ : FKind.Formats .f32)
    (ha : (0x00000000#32 : BitVec 32) = FKind.add.neutral .f32 hφ) (r : Fin 16) (p q : Fin 325) :
    divf (exp (subf S (broadcastTo S16x325x325 (shapeCast S16x325x1 Mx hc) bc)))
      (broadcastTo S16x325x325 (shapeCast S16x325x1
        (multiReduction .add [2] S16x325 (exp (subf S (broadcastTo S16x325x325 (shapeCast S16x325x1 Mx hc) bc)))
          0x00000000#32 hr hφ ha) hc) bc) (ix3 r p q)
    = Ideal.div (Ideal.exp (S (ix3 r p q) - Mx (ix2 r p))) (∑ k : Fin 325, Ideal.exp (S (ix3 r p k) - Mx (ix2 r p))) := by
  have hM : ∀ k : Fin 325, broadcastTo S16x325x325 (shapeCast S16x325x1 Mx hc) bc (ix3 r p k) = Mx (ix2 r p) := fun k => by
    rw [broadcastTo_ab1_abc_apply, shapeCast_ab_ab1_apply]
  have hE : ∀ k : Fin 325, exp (subf S (broadcastTo S16x325x325 (shapeCast S16x325x1 Mx hc) bc)) (ix3 r p k)
      = Ideal.exp (S (ix3 r p k) - Mx (ix2 r p)) := fun k => by
    show Ideal.exp (S (ix3 r p k) - broadcastTo S16x325x325 (shapeCast S16x325x1 Mx hc) bc (ix3 r p k)) = _
    rw [hM]
  rw [divf_apply, hE, broadcastTo_ab1_abc_apply, shapeCast_ab_ab1_apply, laneSum_apply]
  simp only [hE]

/-- With the per-row value the row's own maximum: the max-shifted softmax of the row of scores. -/
theorem softmax_apply (S : FVec Ideal S16x325x325 .f32)
    (hc : S16x325.ShapeCasts S16x325x1) (bc : S16x325x1.Broadcasts S16x325x325)
    (hr : S16x325x325.Reduces [(2 : Fin 3)] S16x325) (hφ : FKind.Formats .f32)
    (hmx : (0xFF800000#32 : BitVec 32) = FKind.maximumf.neutral .f32 hφ)
    (ha : (0x00000000#32 : BitVec 32) = FKind.add.neutral .f32 hφ) (r : Fin 16) (p q : Fin 325) :
    divf (exp (subf S (broadcastTo S16x325x325 (shapeCast S16x325x1
        (multiReduction .maximumf [2] S16x325 S 0xFF800000#32 hr hφ hmx) hc) bc)))
      (broadcastTo S16x325x325 (shapeCast S16x325x1
        (multiReduction .add [2] S16x325 (exp (subf S (broadcastTo S16x325x325 (shapeCast S16x325x1
          (multiReduction .maximumf [2] S16x325 S 0xFF800000#32 hr hφ hmx) hc) bc)))
          0x00000000#32 hr hφ ha) hc) bc) (ix3 r p q)
    = rowSoftmax (fun k => S (ix3 r p k)) q := by
  rw [shifted_apply, laneMax_apply]
  rfl

/-- THE BLOCK AT AN INDEX: the body's stored value at (r, p, q) is the softmax over k of the scores
    x₀[r, p] · x₁[r, k] · x₂[p, k], at lane q. -/
theorem payload_apply (x0 x1 : Vec Ideal S16x325 .f32) (x2 : Vec Ideal S325x325 .f32) (r : Fin 16) (p q : Fin 325) :
    k0_pay1 (F := Ideal) x0 x1 x2 (ix3 r p q)
      = rowSoftmax (fun k => x0 (ix2 r p) * x1 (ix2 r k) * x2 (ix2 p k)) q := by
  unfold k0_pay1
  dsimp only
  refine (softmax_apply _ _ _ _ _ _ _ r p q).trans ?_
  exact congrArg (fun f => rowSoftmax f q) (funext fun k => score_apply x0 x1 x2 _ _ _ _ _ _ _ _ r p k)

end Cert.KernelIdeal.Bridge

end
-- ==== Proof.KernelArray.lean ====
/-
  From the 48 blocks to the whole array.

  Grid point t loads rows 16t … 16t + 15 of the two [768, 325] operand arrays and the whole [325, 325] weight matrix, and
  writes back rows 16t … 16t + 15 of the [768, 325, 325] result.  A row's softmax depends only on that row of the two
  operands and on the weights, so what point t writes is block t of ONE function of the three arrays —
  `OuterSoftmax.weights` — and, the 48 blocks tiling the rows, the array ends holding that function.
-/
import proofs.«128878_j21792664059967_2_alg».proof.Proof.Spec
import proofs.«128878_j21792664059967_2_alg».proof.Proof.LibLane3
import proofs.«128878_j21792664059967_2_alg».proof.Proof.Gen.KernelIdeal.Frame
import proofs.«128878_j21792664059967_2_alg».proof.Proof.KernelRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Cert.OuterSoftmax Idealize.ShloMosaic.Pipeline

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The three operand arrays as the region finds them, as arrays of extended reals. -/
def operandA (c : Dev nD) : (⟨2, ![768, 325]⟩ : Shape).Idx → EReal := V m c main_v22
def operandB (c : Dev nD) : (⟨2, ![768, 325]⟩ : Shape).Idx → EReal := V m c main_v24
def operandW (c : Dev nD) : (⟨2, ![325, 325]⟩ : Shape).Idx → EReal := V m c main_v29

/-- The printed index maps over the grid: the row windows and the result window sit at block t of axis 0, the weight
    window at the origin. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- Row 16t + r of 768. -/
def blockRow (t : Fin cfg0.N) (r : Fin 16) : Fin 768 :=
  ⟨16 * t.val + r.val, by have h : cfg0.N = 48 := N_0; have := t.isLt; have := r.isLt; omega⟩

/-- The first operand's block at point t is rows 16t … of its array. -/
theorem iblk0_apply (c : Dev nD) (t : Fin cfg0.N) (r : Fin 16) (p : Fin 325) :
    (iblk m c 0 t : Vec Ideal S16x325 .f32) (ix2 r p) = operandA m c (ix2 (blockRow t r) p) := by
  obtain ⟨e0, e1, -⟩ := index_facts t
  unfold iblk operandA
  rw [View.read_apply]
  show V m c main_v22 _ = V m c main_v22 _
  refine congrArg (V m c main_v22) (funext fun a => Fin.ext ?_)
  match a with
  | ⟨0, _⟩ => show win0_0.index t (0 : Fin 2) * 16 + 1 * r.val = 16 * t.val + r.val; rw [e0]; omega
  | ⟨1, _⟩ => show win0_0.index t (1 : Fin 2) * 325 + 1 * p.val = p.val; rw [e1]; omega

/-- The second operand's block at point t is rows 16t … of its array. -/
theorem iblk1_apply (c : Dev nD) (t : Fin cfg0.N) (r : Fin 16) (p : Fin 325) :
    (iblk m c 1 t : Vec Ideal S16x325 .f32) (ix2 r p) = operandB m c (ix2 (blockRow t r) p) := by
  obtain ⟨-, -, e0, e1, -⟩ := index_facts t
  unfold iblk operandB
  rw [View.read_apply]
  show V m c main_v24 _ = V m c main_v24 _
  refine congrArg (V m c main_v24) (funext fun a => Fin.ext ?_)
  match a with
  | ⟨0, _⟩ => show win0_1.index t (0 : Fin 2) * 16 + 1 * r.val = 16 * t.val + r.val; rw [e0]; omega
  | ⟨1, _⟩ => show win0_1.index t (1 : Fin 2) * 325 + 1 * p.val = p.val; rw [e1]; omega

/-- The weight window's block at every point is the whole matrix. -/
theorem iblk2_apply (c : Dev nD) (t : Fin cfg0.N) (p k : Fin 325) :
    (iblk m c 2 t : Vec Ideal S325x325 .f32) (ix2 p k) = operandW m c (ix2 p k) := by
  obtain ⟨-, -, -, -, e0, e1, -⟩ := index_facts t
  unfold iblk operandW
  rw [View.read_apply]
  show V m c main_v29 _ = V m c main_v29 _
  refine congrArg (V m c main_v29) (funext fun a => Fin.ext ?_)
  match a with
  | ⟨0, _⟩ => show win0_2.index t (0 : Fin 2) * 325 + 1 * p.val = p.val; rw [e0]; omega
  | ⟨1, _⟩ => show win0_2.index t (1 : Fin 2) * 325 + 1 * k.val = k.val; rw [e1]; omega

/-- Where entry (r, p, q) of point t's result block sits in the array. -/
theorem oblk_emb (t : Fin cfg0.N) (r : Fin 16) (p q : Fin 325) :
    ((cfg0.win 3).blk t).view.emb (ix3 r p q) = (ix3 (blockRow t r) p q : S768x325x325.Idx) := by
  obtain ⟨-, -, -, -, -, -, e0, e1, e2⟩ := index_facts t
  funext a
  apply Fin.ext
  match a with
  | ⟨0, _⟩ => show win0_3.index t (0 : Fin 3) * 16 + 1 * r.val = 16 * t.val + r.val; rw [e0]; omega
  | ⟨1, _⟩ => show win0_3.index t (1 : Fin 3) * 325 + 1 * p.val = p.val; rw [e1]; omega
  | ⟨2, _⟩ => show win0_3.index t (2 : Fin 3) * 325 + 1 * q.val = q.val; rw [e2]; omega

/-- Entry (r, p, q) of what point t stores is entry (16t + r, p, q) of the softmaxed score tensor of the three arrays:
    the block reads only rows 16t … of the two row operands, and the whole weight matrix. -/
theorem block_entry (c : Dev nD) (t : Fin cfg0.N) (r : Fin 16) (p q : Fin 325) :
    k0_pay1 (F := Ideal) (iblk m c 0 t) (iblk m c 1 t) (iblk m c 2 t) (ix3 r p q)
      = weights (operandA m c) (operandB m c) (operandW m c) (ix3 (blockRow t r) p q) := by
  refine (payload_apply (iblk m c 0 t) (iblk m c 1 t) (iblk m c 2 t) r p q).trans ?_
  show _ = rowSoftmax (score (operandA m c) (operandB m c) (operandW m c) (blockRow t r) p) q
  refine congrArg (fun f => rowSoftmax f q) (funext fun k => ?_)
  unfold score
  rw [iblk0_apply, iblk1_apply, iblk2_apply]

/-- WHAT POINT t WRITES BACK is block t of any array `G` whose entry (16t + r, p, q) is what the body stores at
    (r, p, q).  (`G` is kept a variable here: the block is read through the window's view without opening it.) -/
theorem flushed_eq_of (c : Dev nD) (G : (⟨3, ![768, 325, 325]⟩ : Shape).Idx → EReal)
    (hG : ∀ (t : Fin cfg0.N) (r : Fin 16) (p q : Fin 325),
      k0_pay1 (F := Ideal) (iblk m c 0 t) (iblk m c 1 t) (iblk m c 2 t) (ix3 r p q) = G (ix3 (blockRow t r) p q))
    (t : Fin cfg0.N) :
    (dats m 0 c).flushed 3 t = ((cfg0.win 3).blk t).view.read (Elt Ideal) G := by
  show (cfg0.win 3).cut (grid0.coords t) ((dats m 0 c).after 3 t) = _
  rw [after0_3]
  unfold out0_3
  rw [View.canon_unit_zero zero3]
  simp only [View.ld_unit_zero (S := S16x325) zero2, View.ld_unit_zero (S := S325x325) zero2]
  funext j
  rw [View.read_apply]
  obtain ⟨r, p, q, hj⟩ : ∃ (r : Fin 16) (p q : Fin 325), (j : S16x325x325.Idx) = ix3 r p q := ⟨j 0, j 1, j 2, eq_ix3 _⟩
  subst hj
  show k0_pay1 (F := Ideal) (iblk m c 0 t) (iblk m c 1 t) (iblk m c 2 t) (ix3 r p q) = G _
  rw [hG t r p q]
  exact congrArg G (oblk_emb t r p q).symm

/-- An index of the array is in point t's block iff each coordinate is in the block's range on its axis. -/
theorem mem_oblk (t : Fin cfg0.N) (i : S768x325x325.Idx) :
    i ∈ ((cfg0.win 3).blk t).view.set ↔ ∀ a : Fin 3, win0_3.index t a * S16x325x325.size a ≤ (i a).val
      ∧ (i a).val < win0_3.index t a * S16x325x325.size a + S16x325x325.size a := by
  show i ∈ ((View.whole main_v30).slice (win0_3.rect t)).set ↔ _
  rw [View.set_slice_whole, Rect.mem_set_unit]
  exact Iff.rfl

/-- Every index is in the block of the point that holds its row: point ⌊row / 16⌋. -/
theorem cover (i : S768x325x325.Idx) :
    ∃ t : Fin cfg0.N, (cfg0.win 3).flush t = true ∧ i ∈ ((cfg0.win 3).blk t).view.set := by
  have hN : cfg0.N = 48 := N_0
  have h0 : (i 0).val < 768 := (i 0).isLt
  have h1 : (i 1).val < 325 := (i 1).isLt
  have h2 : (i 2).val < 325 := (i 2).isLt
  refine ⟨⟨(i 0).val / 16, by omega⟩, flush0_3 _, ?_⟩
  obtain ⟨-, -, -, -, -, -, e0, e1, e2⟩ := index_facts ⟨(i 0).val / 16, by omega⟩
  rw [mem_oblk]
  intro a
  match a with
  | ⟨0, _⟩ =>
    show win0_3.index ⟨(i 0).val / 16, _⟩ (0 : Fin 3) * 16 ≤ (i 0).val ∧ (i 0).val < win0_3.index ⟨(i 0).val / 16, _⟩ (0 : Fin 3) * 16 + 16
    rw [e0]; show (i 0).val / 16 * 16 ≤ (i 0).val ∧ (i 0).val < (i 0).val / 16 * 16 + 16; omega
  | ⟨1, _⟩ =>
    show win0_3.index ⟨(i 0).val / 16, _⟩ (1 : Fin 3) * 325 ≤ (i 1).val ∧ (i 1).val < win0_3.index ⟨(i 0).val / 16, _⟩ (1 : Fin 3) * 325 + 325
    rw [e1]; omega
  | ⟨2, _⟩ =>
    show win0_3.index ⟨(i 0).val / 16, _⟩ (2 : Fin 3) * 325 ≤ (i 2).val ∧ (i 2).val < win0_3.index ⟨(i 0).val / 16, _⟩ (2 : Fin 3) * 325 + 325
    rw [e2]; omega

/-- THE RESULT ARRAY after the region: the softmaxed score tensor of the three operand arrays. -/
theorem final (c : Dev nD) :
    (dats m 0 c).arrAt 3 cfg0.N = weights (operandA m c) (operandB m c) (operandW m c) :=
  (dats m 0 c).arrAt_eq_of_cover 3 (weights (operandA m c) (operandB m c) (operandW m c))
    (fun t _ => flushed_eq_of m c (weights (operandA m c) (operandB m c) (operandW m c)) (block_entry m c) t) cover

end Cert.KernelIdeal.Bridge

end
-- ==== Proof.KernelHost1.lean ====
/-
  The region's first operand array. Before the region the program computes, on the host, the reference's own prelude
  operation for operation: this array is the reference's first array of powers, of the same arguments.
-/
import proofs.«128878_j21792664059967_2_alg».proof.Proof.Spec
import proofs.«128878_j21792664059967_2_alg».proof.Proof.LibLane3
import proofs.«128878_j21792664059967_2_alg».proof.Proof.Gen.KernelIdeal.Frame
import proofs.«128878_j21792664059967_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Idealize.ShloMosaic.StableHlo

variable (m : (ℓ : Loc nD τ sig) → Buf (Elt Ideal) ℓ)

/-- The first operand array: the pooled, softplus-shifted first half raised to the first exponent. -/
theorem V_pow1 (c : Dev nD) : (V m c main_v22 : S768x325.Idx → EReal)
    = Cert.ReferenceIdeal.Read.val_main_v22 (F := Ideal) (m ((c : Thread nD τ).loc main_arg0)) (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

end Cert.KernelIdeal.Bridge

end
-- ==== Proof.KernelHost2.lean ====
/-
  The region's second operand array: the reference's second array of powers, of the same arguments.
-/
import proofs.«128878_j21792664059967_2_alg».proof.Proof.Spec
import proofs.«128878_j21792664059967_2_alg».proof.Proof.LibLane3
import proofs.«128878_j21792664059967_2_alg».proof.Proof.Gen.KernelIdeal.Frame
import proofs.«128878_j21792664059967_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Idealize.ShloMosaic.StableHlo

variable (m : (ℓ : Loc nD τ sig) → Buf (Elt Ideal) ℓ)

/-- The second operand array: the pooled, softplus-shifted second half raised to the second exponent. -/
theorem V_pow2 (c : Dev nD) : (V m c main_v24 : S768x325.Idx → EReal)
    = Cert.ReferenceIdeal.Read.val_main_v25 (F := Ideal) (m ((c : Thread nD τ).loc main_arg0)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

end Cert.KernelIdeal.Bridge

end
-- ==== Proof.KernelHost3.lean ====
/-
  The region's third operand array: the reference's matrix of powered distances, already multiplied, entry by entry,
  by the scalar gain (which the reference multiplies in later, into the whole score tensor).
-/
import proofs.«128878_j21792664059967_2_alg».proof.Proof.Spec
import proofs.«128878_j21792664059967_2_alg».proof.Proof.LibLane3
import proofs.«128878_j21792664059967_2_alg».proof.Proof.Gen.KernelIdeal.Frame
import proofs.«128878_j21792664059967_2_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Idealize.ShloMosaic.StableHlo

variable (m : (ℓ : Loc nD τ sig) → Buf (Elt Ideal) ℓ)

/-- The third operand array as the host operations compose it. -/
theorem V_weights_term (c : Dev nD) : (V m c main_v29 : S325x325.Idx → EReal)
    = (mulf (broadcastInDim S325x325 ![] Facts₀.bcast_S_S325x325 (Cert.ReferenceIdeal.Read.val_main_v20 (F := Ideal) (m ((c : Thread nD τ).loc main_arg5))))
        (Cert.ReferenceIdeal.Read.val_main_v32 (F := Ideal) (m ((c : Thread nD τ).loc main_arg1)) (m ((c : Thread nD τ).loc main_arg4))) : FVec Ideal S325x325 .f32) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10, List.flatten_cons, List.flatten_nil, List.append_nil,
    List.cons_append, List.nil_append]
  after_results_simp
  rfl

/-- Entry by entry: the gain times the powered distance. -/
theorem V_weights (c : Dev nD) : (V m c main_v29 : S325x325.Idx → EReal)
    = fun i => Cert.ReferenceIdeal.Read.val_main_v20 (F := Ideal) (m ((c : Thread nD τ).loc main_arg5)) ix0
        * Cert.ReferenceIdeal.Read.val_main_v32 (F := Ideal) (m ((c : Thread nD τ).loc main_arg1)) (m ((c : Thread nD τ).loc main_arg4)) i := by
  rw [V_weights_term]
  funext i
  rw [mulf_apply, broadcastInDim_apply _ Facts₀.bcast_S_S325x325 _ i ix0 (fun a => a.elim0)]

end Cert.KernelIdeal.Bridge

end
-- ==== Proof.KernelRun.lean ====
/-
  The kernel's program, run and read: after the region the [768, 325, 325] array is regrouped as [64, 12, 325, 325], so
  the program's result is the specification's `result` of the three operand arrays — which the host prelude made the
  reference's own prelude values (the weight matrix with the gain already multiplied in).
-/
import proofs.«128878_j21792664059967_2_alg».proof.Proof.Spec
import proofs.«128878_j21792664059967_2_alg».proof.Proof.LibLane3
import proofs.«128878_j21792664059967_2_alg».proof.Proof.Gen.KernelIdeal.Frame
import proofs.«128878_j21792664059967_2_alg».proof.Proof.KernelArray
import proofs.«128878_j21792664059967_2_alg».proof.Proof.KernelHost1
import proofs.«128878_j21792664059967_2_alg».proof.Proof.KernelHost2
import proofs.«128878_j21792664059967_2_alg».proof.Proof.KernelHost3
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Idealize.ShloMosaic.TcCoe Idealize.SL.Sem Cert.KernelIdeal Cert.KernelIdeal.Gen Cert.OuterSoftmax Idealize.ShloMosaic.StableHlo

variable (m : (ℓ : Loc nD τ sig) → Buf (Elt Ideal) ℓ) (ρ : Dev nD → PrngReg)

/-- Regrouping the rows of the softmaxed score tensor as 64 × 12 gives the final array: (b, t, p, q) and
    (b·12 + t, p, q) flatten to the same position. -/
theorem regroup (a₁ a₂ : (⟨2, ![768, 325]⟩ : Shape).Idx → EReal) (w : (⟨2, ![325, 325]⟩ : Shape).Idx → EReal)
    (h : (⟨3, ![768, 325, 325]⟩ : Shape).ShapeCasts ⟨4, ![64, 12, 325, 325]⟩) :
    shapeCast ⟨4, ![64, 12, 325, 325]⟩ (weights a₁ a₂ w) h = result a₁ a₂ w := by
  funext i
  obtain ⟨b, t, p, q, rfl⟩ : ∃ (b : Fin 64) (t : Fin 12) (p q : Fin 325), i = ix4 b t p q := ⟨i 0, i 1, i 2, i 3, eq_ix4 i⟩
  refine (shapeCast_apply (weights a₁ a₂ w) h (ix4 b t p q) (ix3 (row b t) p q) ?_).trans rfl
  rw [Shape.rowMajor_val_three, Shape.rowMajor_val_four]
  rfl

/-- The line after the region regroups the region's result array. -/
theorem tail_eq (c : Dev nD) :
    Pipeline.afterTail₀ cfgs (dats m) 0 (V0 m) [hostOps1] c main_v31
      = shapeCast S64x12x325x325 ((dats m 0 c).arrAt 3 cfg0.N : S768x325x325.Idx → EReal)
          Facts₀.shapeCasts_S768x325x325_S64x12x325x325 := by
  unfold Pipeline.afterTail₀
  show StableHlo.after hostOps1 _ (Proc.devRef .tc main_v31) = _
  after_results
  exact congrArg (fun x => shapeCast S64x12x325x325 x Facts₀.shapeCasts_S768x325x325_S64x12x325x325)
    (Pipeline.withArrays_arr spec0 launch0.win.arr_inj c _ _ 3)

/-- The operand arrays are the reference's prelude values (the gain already multiplied into the third). -/
theorem operandA_eq (c : Dev nD) : operandA m c = (Cert.ReferenceIdeal.Read.val_main_v22 (F := Ideal) (m ((c : Thread nD τ).loc main_arg0)) (m ((c : Thread nD τ).loc main_arg2))) := V_pow1 m c
theorem operandB_eq (c : Dev nD) : operandB m c = (Cert.ReferenceIdeal.Read.val_main_v25 (F := Ideal) (m ((c : Thread nD τ).loc main_arg0)) (m ((c : Thread nD τ).loc main_arg3))) := V_pow2 m c
theorem operandW_eq (c : Dev nD) : operandW m c = (fun i => Cert.ReferenceIdeal.Read.val_main_v20 (F := Ideal) (m ((c : Thread nD τ).loc main_arg5)) ix0 * Cert.ReferenceIdeal.Read.val_main_v32 (F := Ideal) (m ((c : Thread nD τ).loc main_arg1)) (m ((c : Thread nD τ).loc main_arg4)) i) := V_weights m c

/-- THE PROGRAM'S RESULT, as the tail leaves it: the specification's function of the reference's prelude values. -/
theorem result_eq (c : Dev nD) :
    Pipeline.afterTail₀ cfgs (dats m) 0 (V0 m) [hostOps1] c main_v31
      = result (Cert.ReferenceIdeal.Read.val_main_v22 (F := Ideal) (m ((c : Thread nD τ).loc main_arg0)) (m ((c : Thread nD τ).loc main_arg2))) (Cert.ReferenceIdeal.Read.val_main_v25 (F := Ideal) (m ((c : Thread nD τ).loc main_arg0)) (m ((c : Thread nD τ).loc main_arg3))) (fun i => Cert.ReferenceIdeal.Read.val_main_v20 (F := Ideal) (m ((c : Thread nD τ).loc main_arg5)) ix0 * Cert.ReferenceIdeal.Read.val_main_v32 (F := Ideal) (m ((c : Thread nD τ).loc main_arg1)) (m ((c : Thread nD τ).loc main_arg4)) i) := by
  rw [tail_eq, final, regroup, operandA_eq, operandB_eq, operandW_eq]

/-- The frame run re-posted: the result at that function, the arguments unchanged. -/
theorem run : θ_run defs (onTc (τ := τ) (main (F := Ideal))) ⟨m, fun _ => 0, ρ⟩ fun r => ∀ c : Dev nD,
      r.2.mem ((c : Thread nD τ).loc main_v31) = result (Cert.ReferenceIdeal.Read.val_main_v22 (F := Ideal) (m ((c : Thread nD τ).loc main_arg0)) (m ((c : Thread nD τ).loc main_arg2))) (Cert.ReferenceIdeal.Read.val_main_v25 (F := Ideal) (m ((c : Thread nD τ).loc main_arg0)) (m ((c : Thread nD τ).loc main_arg3))) (fun i => Cert.ReferenceIdeal.Read.val_main_v20 (F := Ideal) (m ((c : Thread nD τ).loc main_arg5)) ix0 * Cert.ReferenceIdeal.Read.val_main_v32 (F := Ideal) (m ((c : Thread nD τ).loc main_arg1)) (m ((c : Thread nD τ).loc main_arg4)) i)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v31 (Pipeline.mem_restRefs_of main_v31 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Bridge

end
-- ==== Proof.RefRow.lean ====
/-
  The reference, read at an index.

  Its prelude ends in four values: two [768, 325] arrays of powers, the [325, 325] matrix of powered distances and a
  scalar gain.  From them it forms gain · (a₁[r, p] · a₂[r, k]) · d[p, k] over [768, 325, 325], regroups the rows as
  [64, 12], and takes the softmax of each row over its last axis in the max-shifted form (the maximum once more compared
  with −∞, which changes nothing).  So at (b, t, p, q) the result is `rowSoftmax` of the row of scores of row b·12 + t.
-/
import proofs.«128878_j21792664059967_2_alg».proof.Proof.Spec
import proofs.«128878_j21792664059967_2_alg».proof.Proof.LibLane3
import proofs.«128878_j21792664059967_2_alg».proof.Proof.Gen.ReferenceIdeal.Read
import Mathlib.Data.Finset.Fold
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Idealize.ShloMosaic Idealize.ShloMosaic.ValueIdx Idealize.ShloMosaic.TcCoe Idealize.SL.Sem Cert.ReferenceIdeal Cert.ReferenceIdeal.Read Cert.OuterSoftmax

variable (x0 : (⟨S64x64x325x12, .f32⟩ : BufTy).Contents (Elt Ideal)) (x1 : (⟨S325x325, .f32⟩ : BufTy).Contents (Elt Ideal))
  (x2 x3 x4 x5 : (⟨S1, .f32⟩ : BufTy).Contents (Elt Ideal))

/-- The unregrouped score at (r, p, k): gain · (a₁[r, p] · a₂[r, k]) · d[p, k]. -/
theorem score_apply (r : Fin 768) (p k : Fin 325) :
    val_main_v37 (F := Ideal) x0 x1 x2 x3 x4 x5 (ix3 r p k) = (scoreGainFirst (val_main_v22 (F := Ideal) x0 x2) (val_main_v25 (F := Ideal) x0 x3) (val_main_v20 (F := Ideal) x5 ix0) (val_main_v32 (F := Ideal) x1 x4) r p k) := by
  have e1 : idx_main_v23 (idx_main_v27 (ix3 r p k)) = ix2 r p := funext fun a => by
    match a with | ⟨0, _⟩ => rfl | ⟨1, _⟩ => rfl
  have e2 : idx_main_v26 (idx_main_v28 (ix3 r p k)) = ix2 r k := funext fun a => by
    match a with | ⟨0, _⟩ => rfl | ⟨1, _⟩ => rfl
  have e3 : idx_main_v35 (idx_main_v36 (ix3 r p k)) = ix2 p k := funext fun a => by
    match a with | ⟨0, _⟩ => rfl | ⟨1, _⟩ => rfl
  rw [val_main_v37_apply, val_main_v34_apply, val_main_v33_apply, val_main_v29_apply, val_main_v27_apply,
    val_main_v23_apply, val_main_v28_apply, val_main_v26_apply, val_main_v36_apply, val_main_v35_apply, e1, e2, e3]
  rfl

/-- Regrouping the 768 rows as 64 × 12: the index (b, t, p, k) reads row b·12 + t. -/
theorem regroup_idx (b : Fin 64) (t : Fin 12) (p k : Fin 325) : idx_main_v38 (ix4 b t p k) = ix3 (row b t) p k := by
  have hb := b.isLt; have ht := t.isLt; have hp := p.isLt; have hk := k.isLt
  funext a
  match a with
  | ⟨0, _⟩ => exact Fin.ext (by show (((b.val * 12 + t.val) * 325 + p.val) * 325 + k.val) / 105625 = b.val * 12 + t.val; omega)
  | ⟨1, _⟩ => exact Fin.ext (by show (((b.val * 12 + t.val) * 325 + p.val) * 325 + k.val) / 325 % 325 = p.val; omega)
  | ⟨2, _⟩ => exact Fin.ext (by show (((b.val * 12 + t.val) * 325 + p.val) * 325 + k.val) % 325 = k.val; omega)

/-- The regrouped score at (b, t, p, k). -/
theorem regrouped_apply (b : Fin 64) (t : Fin 12) (p k : Fin 325) :
    val_main_v38 (F := Ideal) x0 x1 x2 x3 x4 x5 (ix4 b t p k) = (scoreGainFirst (val_main_v22 (F := Ideal) x0 x2) (val_main_v25 (F := Ideal) x0 x3) (val_main_v20 (F := Ideal) x5 ix0) (val_main_v32 (F := Ideal) x1 x4) (row b t) p k) := by
  rw [val_main_v38_apply, regroup_idx, score_apply]

/-- Reducing [64, 12, 325, 325] along its last axis: (b, t, p) with the coordinate k put back is (b, t, p, k). -/
theorem lift_last4 (h : S64x12x325x325.Reduces [(3 : Fin 4)] S64x12x325) (b : Fin 64) (t : Fin 12) (p k : Fin 325) :
    h.lift (ix3 b t p) k = ix4 b t p k := by
  funext ax
  match ax with
  | ⟨0, _⟩ => exact Fin.ext rfl
  | ⟨1, _⟩ => exact Fin.ext rfl
  | ⟨2, _⟩ => exact Fin.ext rfl
  | ⟨3, _⟩ => exact Fin.ext rfl

/-- The row's maximum, as the reference takes it (a fold of `max` from −∞ over the last axis). -/
theorem rowmax_apply (b : Fin 64) (t : Fin 12) (p : Fin 325) :
    val_main_v39 (F := Ideal) x0 x1 x2 x3 x4 x5 (ix3 b t p) = rowMax ((scoreGainFirst (val_main_v22 (F := Ideal) x0 x2) (val_main_v25 (F := Ideal) x0 x3) (val_main_v20 (F := Ideal) x5 ix0) (val_main_v32 (F := Ideal) x1 x4) (row b t) p)) := by
  unfold val_main_v39
  have h : S64x12x325x325.Reduces [(3 : Fin 4)] S64x12x325 := by decide
  rw [Host.reduce_eq_fold_single FloatOps.maximumf _ _ _ h _ (ix3 b t p)]
  have e : (val_main_v38 (F := Ideal) x0 x1 x2 x3 x4 x5 ∘ h.lift (ix3 b t p))
      = (scoreGainFirst (val_main_v22 (F := Ideal) x0 x2) (val_main_v25 (F := Ideal) x0 x3) (val_main_v20 (F := Ideal) x5 ix0) (val_main_v32 (F := Ideal) x1 x4) (row b t) p) := funext fun (k : Fin 325) =>
    (congrArg (val_main_v38 (F := Ideal) x0 x1 x2 x3 x4 x5) (lift_last4 h b t p k)).trans (regrouped_apply _ _ _ _ _ _ b t p k)
  rw [e]
  rfl

/-- The maximum compared once more with −∞ is the maximum. -/
theorem rowmax'_apply (b : Fin 64) (t : Fin 12) (p : Fin 325) :
    val_main_v41 (F := Ideal) x0 x1 x2 x3 x4 x5 (ix3 b t p) = rowMax ((scoreGainFirst (val_main_v22 (F := Ideal) x0 x2) (val_main_v25 (F := Ideal) x0 x3) (val_main_v20 (F := Ideal) x5 ix0) (val_main_v32 (F := Ideal) x1 x4) (row b t) p)) := by
  rw [val_main_v41_apply, rowmax_apply]
  exact max_bot_rowMax _

/-- The shifted, exponentiated score at (b, t, p, k). -/
theorem expo_apply (b : Fin 64) (t : Fin 12) (p k : Fin 325) :
    val_main_v45 (F := Ideal) x0 x1 x2 x3 x4 x5 (ix4 b t p k)
      = Ideal.exp ((scoreGainFirst (val_main_v22 (F := Ideal) x0 x2) (val_main_v25 (F := Ideal) x0 x3) (val_main_v20 (F := Ideal) x5 ix0) (val_main_v32 (F := Ideal) x1 x4) (row b t) p k) - rowMax ((scoreGainFirst (val_main_v22 (F := Ideal) x0 x2) (val_main_v25 (F := Ideal) x0 x3) (val_main_v20 (F := Ideal) x5 ix0) (val_main_v32 (F := Ideal) x1 x4) (row b t) p))) := by
  have e : idx_main_v42 (idx_main_v43 (ix4 b t p k)) = ix3 b t p := funext fun a => by
    match a with | ⟨0, _⟩ => rfl | ⟨1, _⟩ => rfl | ⟨2, _⟩ => rfl
  rw [val_main_v45_apply, val_main_v44_apply, regrouped_apply, val_main_v43_apply, val_main_v42_apply, e, rowmax'_apply]
  rfl

/-- The row's sum of exponentials (the initial value of the sum is zero). -/
theorem sum_apply (b : Fin 64) (t : Fin 12) (p : Fin 325) :
    val_main_v46 (F := Ideal) x0 x1 x2 x3 x4 x5 (ix3 b t p)
      = ∑ k : Fin 325, Ideal.exp ((scoreGainFirst (val_main_v22 (F := Ideal) x0 x2) (val_main_v25 (F := Ideal) x0 x3) (val_main_v20 (F := Ideal) x5 ix0) (val_main_v32 (F := Ideal) x1 x4) (row b t) p k) - rowMax ((scoreGainFirst (val_main_v22 (F := Ideal) x0 x2) (val_main_v25 (F := Ideal) x0 x3) (val_main_v20 (F := Ideal) x5 ix0) (val_main_v32 (F := Ideal) x1 x4) (row b t) p))) := by
  rw [val_main_v46_apply]
  have e : ∀ k : Fin 325, idx_main_v46 (ix3 b t p) k = ix4 b t p k := fun k => funext fun a => by
    match a with | ⟨0, _⟩ => rfl | ⟨1, _⟩ => rfl | ⟨2, _⟩ => rfl | ⟨3, _⟩ => rfl
  simp only [e, expo_apply]
  show Ideal.ofBits .f32 0x00000000#32 + _ = _
  rw [Ideal.ofBits_zero_f32, zero_add]

/-- THE REFERENCE AT AN INDEX: the softmax over k of the gain-first scores of row b·12 + t, at lane q. -/
theorem result_apply (b : Fin 64) (t : Fin 12) (p q : Fin 325) :
    val_main_v49 (F := Ideal) x0 x1 x2 x3 x4 x5 (ix4 b t p q) = rowSoftmax ((scoreGainFirst (val_main_v22 (F := Ideal) x0 x2) (val_main_v25 (F := Ideal) x0 x3) (val_main_v20 (F := Ideal) x5 ix0) (val_main_v32 (F := Ideal) x1 x4) (row b t) p)) q := by
  have e : idx_main_v47 (idx_main_v48 (ix4 b t p q)) = ix3 b t p := funext fun a => by
    match a with | ⟨0, _⟩ => rfl | ⟨1, _⟩ => rfl | ⟨2, _⟩ => rfl
  rw [val_main_v49_apply, expo_apply, val_main_v48_apply, val_main_v47_apply, e, sum_apply]
  rfl

/-- THE REFERENCE'S RESULT is the specification's function of its four prelude values, the gain multiplied into the
    weight matrix (the groupings agree: `scoreGainFirst_eq`). -/
theorem result_eq :
    val_main_v49 (F := Ideal) x0 x1 x2 x3 x4 x5 = result (val_main_v22 (F := Ideal) x0 x2) (val_main_v25 (F := Ideal) x0 x3) (fun i => (val_main_v20 (F := Ideal) x5 ix0) * (val_main_v32 (F := Ideal) x1 x4) i) := by
  funext i
  obtain ⟨b, t, p, q, rfl⟩ : ∃ (b : Fin 64) (t : Fin 12) (p q : Fin 325), i = ix4 b t p q := ⟨i 0, i 1, i 2, i 3, eq_ix4 i⟩
  rw [result_apply]
  unfold result
  exact congrArg (fun f => rowSoftmax f q) (funext fun k => scoreGainFirst_eq _ _ _ _ _ _ _)

end Cert.ReferenceIdeal.Bridge

end
-- ==== Proof.lean ====
/-
  The certificate of the rank-one-score softmax kernel against its jnp reference, over the extended reals.

  Both programs compute, on the host, the same prelude from the arguments: two [768, 325] arrays a₁, a₂ of powers, the
  [325, 325] matrix d of powered distances, and a scalar gain g.  The kernel's region then takes, row by row, the softmax
  over k of (a₁[r, p] · a₂[r, k]) · (g · d[p, k]) and the program regroups the 768 rows as [64, 12]; the reference forms
  (g · (a₁[r, p] · a₂[r, k])) · d[p, k], regroups, and takes the same max-shifted softmax.  The two scores differ only in
  how a product of four extended reals is grouped, and that multiplication is commutative and associative, so the results
  agree entry by entry with no finiteness assumption: the precondition is never opened.

  The three frames are the generated ones (the reference's is its generated run with the result dropped); the ideal pass
  rewrote nothing, so `preserves` is `True`; `algebraic` puts the kernel's run (Proof/KernelRun.lean) beside the
  reference's generated run read at an index (Proof/RefRow.lean), both at `OuterSoftmax.result` of the same prelude values.
-/
import proofs.«128878_j21792664059967_2_alg».proof.Defs
import proofs.«128878_j21792664059967_2_alg».proof.Proof.Gen.Kernel
import proofs.«128878_j21792664059967_2_alg».proof.Proof.Gen.Kernel.Skeleton
import proofs.«128878_j21792664059967_2_alg».proof.Proof.Gen.Kernel.Launch
import proofs.«128878_j21792664059967_2_alg».proof.Proof.Gen.Kernel.Points
import proofs.«128878_j21792664059967_2_alg».proof.Proof.Gen.Kernel.Frame
import proofs.«128878_j21792664059967_2_alg».proof.Proof.Gen.KernelIdeal
import proofs.«128878_j21792664059967_2_alg».proof.Proof.Gen.KernelIdeal.Skeleton
import proofs.«128878_j21792664059967_2_alg».proof.Proof.Gen.KernelIdeal.Launch
import proofs.«128878_j21792664059967_2_alg».proof.Proof.Gen.KernelIdeal.Points
import proofs.«128878_j21792664059967_2_alg».proof.Proof.Gen.KernelIdeal.Frame
import proofs.«128878_j21792664059967_2_alg».proof.Proof.Gen.ReferenceIdeal
import proofs.«128878_j21792664059967_2_alg».proof.Proof.Gen.Pre_finite_inputs
import proofs.«128878_j21792664059967_2_alg».proof.Proof.Gen.ReferenceIdeal.Run
import proofs.«128878_j21792664059967_2_alg».proof.Proof.Gen.ReferenceIdeal.Read
import proofs.«128878_j21792664059967_2_alg».proof.Proof.KernelRun
import proofs.«128878_j21792664059967_2_alg».proof.Proof.RefRow
import Idealize.ShloMosaic.Adequacy
import Idealize.ShloMosaic.Init

noncomputable section

namespace Cert.Proof

open Idealize.ShloMosaic Idealize.ShloMosaic.ValueIdx Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the same array: the softmax, row by row, of the
    weighted rank-one scores of the common prelude values. -/
theorem algebraic : Cert.algebraic_KernelIdeal_ReferenceIdeal := by
  intro m ρ m' ρ' _ hagree
  refine ⟨_, Cert.KernelIdeal.Bridge.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v49_eq, Cert.ReferenceIdeal.Bridge.result_eq, e0, e1, e2, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
